-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10000x128 : Shape := ⟨2, ![10000, 128]⟩
abbrev S2x1000000 : Shape := ⟨2, ![2, 1000000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg10 : FVec F S128x128 .f32) (main_arg11 : FVec F S128 .f32) (main_arg12 : FVec F S128x128 .f32) (main_arg13 : FVec F S128x128 .f32) (main_arg14 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_v48 main_v49 main_v50

def fn_part1 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x128 .f32) (main_arg1 : FVec F S100000x128 .f32) (main_arg2 : FVec F S10000x128 .f32) (main_arg3 : IVec S2x1000000 32) (main_arg4 : IVec S2x1000000 32) (main_arg5 : IVec S2x1000000 32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_v13 main_v16
-- ==== Kernel.lean ====
abbrev S100000x128 : Shape := ⟨2, ![100000, 128]⟩
abbrev S10000x128 : Shape := ⟨2, ![10000, 128]⟩
abbrev S2x1000000 : Shape := ⟨2, ![2, 1000000]⟩
abbrev S128x128 : Shape := ⟨2, ![128, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 119
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S10000x128, .f32⟩
  | .hbm, ⟨3, _⟩ => ⟨S2x1000000, .i32⟩
  | .hbm, ⟨4, _⟩ => ⟨S2x1000000, .i32⟩
  | .hbm, ⟨5, _⟩ => ⟨S2x1000000, .i32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S100000x128, .bf16⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .bf16⟩
  | .hbm, ⟨29, _⟩ => ⟨S1000000x128, .f32⟩
  | .hbm, ⟨30, _⟩ => ⟨S_, .f32⟩
  | .hbm, ⟨31, _⟩ => ⟨S100000x128, .f32⟩
  | .hbm, ⟨32, _⟩ => ⟨S1000000x1, .i32⟩
  | .hbm, ⟨33, _⟩ => ⟨S100000x128, .f32⟩
  | .hbm, ⟨34, _⟩ => ⟨S_, .f32⟩
  | .hbm, ⟨35, _⟩ => ⟨S1000000, .f32⟩
  | .hbm, ⟨36, _⟩ => ⟨S_, .f32⟩
  | .hbm, ⟨37, _⟩ => ⟨S100000, .f32⟩
  | .hbm, ⟨38, _⟩ => ⟨S1000000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S1x1000000, .i32⟩
  | .hbm, ⟨48, _⟩ => ⟨S1000000, .i32⟩
  | .hbm, ⟨49, _⟩ => ⟨S1x1000000, .i32⟩
  | .hbm, ⟨50, _⟩ => ⟨S1000000, .i32⟩
  | .hbm, ⟨51, _⟩ => ⟨S100000x128, .bf16⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x128, .bf16⟩
  | .hbm, ⟨61, _⟩ => ⟨S1000000x128, .f32⟩
  | .hbm, ⟨62, _⟩ => ⟨S_, .f32⟩
  | .hbm, ⟨63, _⟩ => ⟨S100000x128, .f32⟩
  | .hbm, ⟨64, _⟩ => ⟨S1000000x1, .i32⟩
  | .hbm, ⟨65, _⟩ => ⟨S100000x128, .f32⟩
  | .hbm, ⟨66, _⟩ => ⟨S_, .f32⟩
  | .hbm, ⟨67, _⟩ => ⟨S1000000, .f32⟩
  | .hbm, ⟨68, _⟩ => ⟨S_, .f32⟩
  | .hbm, ⟨69, _⟩ => ⟨S100000, .f32⟩
  | .hbm, ⟨70, _⟩ => ⟨S1000000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S1x1000000, .i32⟩
  | .hbm, ⟨80, _⟩ => ⟨S1000000, .i32⟩
  | .hbm, ⟨81, _⟩ => ⟨S1x1000000, .i32⟩
  | .hbm, ⟨82, _⟩ => ⟨S1000000, .i32⟩
  | .hbm, ⟨83, _⟩ => ⟨S10000x128, .bf16⟩
  | .hbm, ⟨84, _⟩ => ⟨S_, .i32⟩
  | .hbm, ⟨85, _⟩ => ⟨S1000000, .i32⟩
  | .hbm, ⟨86, _⟩ => ⟨S1000000, .i1⟩
  | .hbm, ⟨87, _⟩ => ⟨S_, .i32⟩
  | .hbm, ⟨88, _⟩ => ⟨S1000000, .i32⟩
  | .hbm, ⟨89, _⟩ => ⟨S1000000, .i32⟩
  | .hbm, ⟨90, _⟩ => ⟨S1000000, .i32⟩
  | .hbm, ⟨91, _⟩ => ⟨S1000000x1, .i32⟩
  | .hbm, ⟨92, _⟩ => ⟨S1000000x128, .bf16⟩
  | .hbm, ⟨93, _⟩ => ⟨S1000000x128, .f32⟩
  | .hbm, ⟨94, _⟩ => ⟨S_, .f32⟩
  | .hbm, ⟨95, _⟩ => ⟨S100000x128, .f32⟩
  | .hbm, ⟨96, _⟩ => ⟨S1000000x1, .i32⟩
  | .hbm, ⟨97, _⟩ => ⟨S100000x128, .f32⟩
  | .hbm, ⟨98, _⟩ => ⟨S_, .f32⟩
  | .hbm, ⟨99, _⟩ => ⟨S1000000, .f32⟩
  | .hbm, ⟨100, _⟩ => ⟨S_, .f32⟩
  | .hbm, ⟨101, _⟩ => ⟨S100000, .f32⟩
  | .hbm, ⟨102, _⟩ => ⟨S1000000x1, .i32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .f32⟩
  | .hbm, ⟨110, _⟩ => ⟨S100000x1, .f32⟩
  | .hbm, ⟨111, _⟩ => ⟨S128, .f32⟩
  | .hbm, ⟨112, _⟩ => ⟨S_, .f32⟩
  | .hbm, ⟨113, _⟩ => ⟨S128, .f32⟩
  | .hbm, ⟨114, _⟩ => ⟨S128, .f32⟩
  | .hbm, ⟨115, _⟩ => ⟨S1x128, .f32⟩
  | .hbm, ⟨116, _⟩ => ⟨S100000x128, .f32⟩
  | .hbm, ⟨117, _⟩ => ⟨S1x128, .f32⟩
  | .hbm, ⟨118, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_15 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_19 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  bcast_S_S128 : S_.BroadcastsInDim S128 (![] : Fin 0 → Fin S128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  gather_S10000x128_S1000000x1_S1000000x128_1_0_n_n_0_1_1128_wf : GatherDims.WF S10000x128 S1000000x1 S1000000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S10000x128_S1000000x1_S1000000x128_1_0_n_n_0_1_1128 : GatherDims S10000x128 S1000000x1 S1000000x128 where
  offsetDims := [1]
  collapsedSliceDims := [0]
  operandBatchingDims := []
  startIndicesBatchingDims := []
  startIndexMap := [0]
  indexVectorDim := 1
  sliceSizes := ![1, 128]
  wf := gather_S10000x128_S1000000x1_S1000000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v15) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v78) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v79) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v80) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v81) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S10000x128 : Shape := ⟨2, ![10000, 128]⟩
abbrev S2x1000000 : Shape := ⟨2, ![2, 1000000]⟩
abbrev S128x128 : Shape := ⟨2, ![128, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S10000x128, .f32⟩
  | .hbm, ⟨3, _⟩ => ⟨S2x1000000, .i32⟩
  | .hbm, ⟨4, _⟩ => ⟨S2x1000000, .i32⟩
  | .hbm, ⟨5, _⟩ => ⟨S2x1000000, .i32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S_, .f32⟩
  | .hbm, ⟨29, _⟩ => ⟨S100000x128, .f32⟩
  | .hbm, ⟨30, _⟩ => ⟨S1000000x1, .i32⟩
  | .hbm, ⟨31, _⟩ => ⟨S100000x128, .f32⟩
  | .hbm, ⟨32, _⟩ => ⟨S_, .f32⟩
  | .hbm, ⟨33, _⟩ => ⟨S1000000, .f32⟩
  | .hbm, ⟨34, _⟩ => ⟨S_, .f32⟩
  | .hbm, ⟨35, _⟩ => ⟨S100000, .f32⟩
  | .hbm, ⟨36, _⟩ => ⟨S1000000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S1x1000000, .i32⟩
  | .hbm, ⟨51, _⟩ => ⟨S1000000, .i32⟩
  | .hbm, ⟨52, _⟩ => ⟨S1x1000000, .i32⟩
  | .hbm, ⟨53, _⟩ => ⟨S1000000, .i32⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x128, .f32⟩
  | .hbm, ⟨63, _⟩ => ⟨S_, .f32⟩
  | .hbm, ⟨64, _⟩ => ⟨S100000x128, .f32⟩
  | .hbm, ⟨65, _⟩ => ⟨S1000000x1, .i32⟩
  | .hbm, ⟨66, _⟩ => ⟨S100000x128, .f32⟩
  | .hbm, ⟨67, _⟩ => ⟨S_, .f32⟩
  | .hbm, ⟨68, _⟩ => ⟨S1000000, .f32⟩
  | .hbm, ⟨69, _⟩ => ⟨S_, .f32⟩
  | .hbm, ⟨70, _⟩ => ⟨S100000, .f32⟩
  | .hbm, ⟨71, _⟩ => ⟨S1000000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S1x1000000, .i32⟩
  | .hbm, ⟨86, _⟩ => ⟨S1000000, .i32⟩
  | .hbm, ⟨87, _⟩ => ⟨S1x1000000, .i32⟩
  | .hbm, ⟨88, _⟩ => ⟨S1000000, .i32⟩
  | .hbm, ⟨89, _⟩ => ⟨S_, .i32⟩
  | .hbm, ⟨90, _⟩ => ⟨S1000000, .i32⟩
  | .hbm, ⟨91, _⟩ => ⟨S1000000, .i1⟩
  | .hbm, ⟨92, _⟩ => ⟨S_, .i32⟩
  | .hbm, ⟨93, _⟩ => ⟨S1000000, .i32⟩
  | .hbm, ⟨94, _⟩ => ⟨S1000000, .i32⟩
  | .hbm, ⟨95, _⟩ => ⟨S1000000, .i32⟩
  | .hbm, ⟨96, _⟩ => ⟨S1000000x1, .i32⟩
  | .hbm, ⟨97, _⟩ => ⟨S1000000x128, .f32⟩
  | .hbm, ⟨98, _⟩ => ⟨S_, .f32⟩
  | .hbm, ⟨99, _⟩ => ⟨S100000x128, .f32⟩
  | .hbm, ⟨100, _⟩ => ⟨S1000000x1, .i32⟩
  | .hbm, ⟨101, _⟩ => ⟨S100000x128, .f32⟩
  | .hbm, ⟨102, _⟩ => ⟨S_, .f32⟩
  | .hbm, ⟨103, _⟩ => ⟨S1000000, .f32⟩
  | .hbm, ⟨104, _⟩ => ⟨S_, .f32⟩
  | .hbm, ⟨105, _⟩ => ⟨S100000, .f32⟩
  | .hbm, ⟨106, _⟩ => ⟨S1000000x1, .i32⟩
  | .hbm, ⟨107, _⟩ => ⟨S100000, .f32⟩
  | .hbm, ⟨108, _⟩ => ⟨S_, .f32⟩
  | .hbm, ⟨109, _⟩ => ⟨S100000, .f32⟩
  | .hbm, ⟨110, _⟩ => ⟨S100000, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S100000x128, .f32⟩
  | .hbm, ⟨115, _⟩ => ⟨S100000x128, .f32⟩
  | .hbm, ⟨116, _⟩ => ⟨S100000x128, .f32⟩
  | .hbm, ⟨117, _⟩ => ⟨S1x128, .f32⟩
  | .hbm, ⟨118, _⟩ => ⟨S100000x128, .f32⟩
  | .hbm, ⟨119, _⟩ => ⟨S100000x128, .f32⟩
  | .hbm, ⟨120, _⟩ => ⟨S100000x128, .f32⟩
  | .hbm, ⟨121, _⟩ => ⟨S_, .f32⟩
  | .hbm, ⟨122, _⟩ => ⟨S100000x128, .f32⟩
  | .hbm, ⟨123, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_13 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S10000x128_S1000000x1_S1000000x128_1_0_n_n_0_1_1128_wf : GatherDims.WF S10000x128 S1000000x1 S1000000x128 [1] [0] [] [0] [] 1 ![1, 128]

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S10000x128_S1000000x1_S1000000x128_1_0_n_n_0_1_1128 : GatherDims S10000x128 S1000000x1 S1000000x128 where
  offsetDims := [1]
  collapsedSliceDims := [0]
  operandBatchingDims := []
  startIndicesBatchingDims := []
  startIndexMap := [0]
  indexVectorDim := 1
  sliceSizes := ![1, 128]
  wf := gather_S10000x128_S1000000x1_S1000000x128_1_0_n_n_0_1_1128_wf

class Facts : Prop extends Facts₀ where

variable [Facts]
-- ==== Proof.Named.lean ====
/-
  The idealized kernel's run with its two result arrays named.

  @main is four segments: the host operations that aggregate the neighbours, the two-relation combine
  over its 25 row blocks, one reshape, and the single-relation combine over its 25 row blocks.  The
  contents of every unscoped buffer at each segment boundary are a fold from the launch memory; after the
  last segment they are `W4`.  Every unscoped buffer ends at its `W4` contents: the arguments as launched, and the
  two result buffers at what the regions' write-backs left.
-/
import proofs.«133394_j16338055594019_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the user result `main_v81` and the item
    result `main_v79` end at the last boundary's contents, and the arguments as launched. -/
theorem run : θ_run defs (onTc (τ := τ) (main (F := F))) ⟨m, fun _ => 0, ρ⟩ (fun r => ∀ c : Dev nD,
      r.2.mem ((c.tc : Thread nD τ).loc main_v81) = W4 m ρ c (Proc.devRef .tc main_v81)
      ∧ r.2.mem ((c.tc : Thread nD τ).loc main_v79) = W4 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v81 (by decide)),
       h c _ (mem_uc main_v79 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Named

end
-- ==== Proof.Entry.lean ====
/-
  What the two kernel bodies store, read at one entry.

  Each body takes a [4000,128] block of raw neighbour sums, the [4000,1] column of reciprocal counts beside
  it, the block of destination rows, two [128,128] weight matrices per relation and a [1,128] bias row.
  Entry (p, q) of what it stores is a sum over the 128 features of (sum · reciprocal) · weight, plus the same
  sum for the destination rows, scaled and biased.  The column and the row are broadcast along the missing
  axis; a change of float format is the identity on extended reals; a matrix product into a zero
  accumulator is the plain sum of products.
-/
import proofs.«133394_j16338055594019_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx

/-- A [4000,1] column broadcast to [4000,128] reads its row's single entry. -/
theorem col_apply {α : Type} (v : S4000x1.Idx → α) (p : Fin 4000) (q : Fin 128) :
    broadcastTo S4000x128 v broadcasts_S4000x1_S4000x128 (ix2 p q) = v (ix2 p 0) :=
  broadcastTo_apply v broadcasts_S4000x1_S4000x128 (ix2 p q) (ix2 p 0) (fun a => match a with
    | ⟨0, _⟩ => by show p.val = if (4000 : Nat) = 1 then 0 else p.val; rw [if_neg (by decide)]
    | ⟨1, _⟩ => by show (0 : Fin 1).val = if (1 : Nat) = 1 then 0 else q.val; rw [if_pos rfl]; rfl)

/-- A [1,128] row broadcast to [4000,128] reads its column's single entry. -/
theorem row_apply {α : Type} (v : S1x128.Idx → α) (p : Fin 4000) (q : Fin 128) :
    broadcastTo S4000x128 v broadcasts_S1x128_S4000x128 (ix2 p q) = v (ix2 0 q) :=
  broadcastTo_apply v broadcasts_S1x128_S4000x128 (ix2 p q) (ix2 0 q) (fun a => match a with
    | ⟨0, _⟩ => by show (0 : Fin 1).val = if (1 : Nat) = 1 then 0 else p.val; rw [if_pos rfl]; rfl
    | ⟨1, _⟩ => by show q.val = if (128 : Nat) = 1 then 0 else q.val; rw [if_neg (by decide)])

theorem lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_col (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
theorem rhs_row (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
theorem rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block matrix product into a zero accumulator, at entry (p, q): the sum over the 128 features. -/
theorem matmul_at {φ₁ φ₂ : FTy} (A : FVec Ideal S4000x128 φ₁) (B : FVec Ideal S128x128 φ₂) (p : Fin 4000) (q : Fin 128) :
    matmul dot_S4000x128_S128x128_S4000x128_1_0_0_1_n_n none A B (constant S4000x128 .f32 0x00000000#32) (ix2 p q)
      = ∑ k : Fin 128, A (ix2 p k) * B (ix2 k q) := by
  show FloatOps.matmul dot_S4000x128_S128x128_S4000x128_1_0_0_1_n_n none A B (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The single-relation body at entry (p, q). -/
theorem user_entry (s : Vec Ideal S4000x128 .f32) (r : Vec Ideal S4000x1 .f32) (x : Vec Ideal S4000x128 .f32)
    (wl wr : Vec Ideal S128x128 .f32) (b : Vec Ideal S1x128 .f32) (p : Fin 4000) (q : Fin 128) :
    k1_pay1 (F := Ideal) s r x wl wr b (ix2 p q)
      = Ideal.ofBits .f32 0x3F800000#32
          * ((∑ k : Fin 128, s (ix2 p k) * r (ix2 p 0) * wl (ix2 k q)) + ∑ k : Fin 128, x (ix2 p k) * wr (ix2 k q))
        + b (ix2 0 q) := by
  unfold k1_pay1
  simp only [shapeCast_self]
  rw [addf_apply, mulf_apply, addf_apply, matmul_at, matmul_at, row_apply]
  simp only [truncf_apply, mulf_apply, col_apply]
  rfl

/-- The two-relation body at entry (p, q). -/
theorem item_entry (s1 : Vec Ideal S4000x128 .f32) (r1 : Vec Ideal S4000x1 .f32) (s2 : Vec Ideal S4000x128 .f32) (r2 : Vec Ideal S4000x1 .f32)
    (x : Vec Ideal S4000x128 .f32) (wl1 wr1 wl2 wr2 : Vec Ideal S128x128 .f32) (b : Vec Ideal S1x128 .f32) (p : Fin 4000) (q : Fin 128) :
    k0_pay1 (F := Ideal) (k0_pay2 s1 r1 s2 r2 x wl1 wr1 wl2 wr2) b (ix2 p q)
      = (Ideal.ofBits .f32 0x3F000000#32
            * ((∑ k : Fin 128, s1 (ix2 p k) * r1 (ix2 p 0) * wl1 (ix2 k q)) + ∑ k : Fin 128, x (ix2 p k) * wr1 (ix2 k q))
          + Ideal.ofBits .f32 0x3F000000#32
            * ((∑ k : Fin 128, s2 (ix2 p k) * r2 (ix2 p 0) * wl2 (ix2 k q)) + ∑ k : Fin 128, x (ix2 p k) * wr2 (ix2 k q)))
        + b (ix2 0 q) := by
  unfold k0_pay1 k0_pay2
  simp only [shapeCast_self]
  rw [addf_apply, addf_apply, mulf_apply, mulf_apply, addf_apply, addf_apply, matmul_at, matmul_at, matmul_at, matmul_at, row_apply]
  simp only [truncf_apply, mulf_apply, col_apply]
  rfl

end Cert.KernelIdeal.Entry

end
-- ==== Proof.MeanLaw.lean ====
/-
  The extended-real laws that join the two programs of the SAGE convolution.

  Both programs aggregate neighbour rows into a raw sum `s` and a clamped count `c = max(cnt, 1)`.
  One multiplies the sum by the reciprocal `1 / c`, the other divides the sum by `c`; the count is at
  least one, so it is not zero, and off zero the quotient IS the product with the inverse.  One program
  halves the sum of two biased projections, the other adds the halved projections to the halved sum of
  the biases: a product by a nonnegative real distributes over every sum of extended reals, the
  infinite ones included, so no finiteness is needed.
-/
import Idealize.ShloMosaic.PureOps.Ideal
import Idealize.ShloMosaic.PureOps.Ideal.Laws

noncomputable section

namespace Cert.Sage

open Idealize.ShloMosaic

/-- The pattern `0x3F800000` is the real number one. -/
theorem ofBits_one : Ideal.ofBits .f32 0x3F800000#32 = 1 := by
  simp [Ideal.ofBits, Ideal.ieee, -EReal.coe_mul]; norm_num

/-- The pattern `0x3F000000` is the real number one half. -/
theorem ofBits_half : Ideal.ofBits .f32 0x3F000000#32 = ((1 / 2 : ℝ) : EReal) := by
  simp [Ideal.ofBits, Ideal.ieee, -EReal.coe_mul]; norm_num

/-- A count clamped below by one is not zero. -/
theorem max_one_ne_zero (x : EReal) : max x 1 ≠ 0 :=
  ne_of_gt (lt_of_lt_of_le zero_lt_one (le_max_right x 1))

/-- Off zero, the product with the reciprocal is the quotient: `s · (1 / c) = s / c`. -/
theorem mul_recip_eq_div {c : EReal} (hc : c ≠ 0) (s : EReal) :
    s * Ideal.div 1 c = Ideal.div s c := by
  rw [Ideal.div, Ideal.div, if_neg hc, if_neg hc, one_mul]

/-- A nonnegative real factor distributes over a sum of extended reals. -/
theorem coe_mul_add {h : ℝ} (hh : 0 ≤ h) (y z : EReal) : (h : EReal) * (y + z) = (h : EReal) * y + (h : EReal) * z :=
  EReal.left_distrib_of_nonneg_of_ne_top (by exact_mod_cast hh) (EReal.coe_ne_top h) y z

/-- Halving the sum of two biased projections: `h·((r₁ + b₁) + (r₂ + b₂)) = (h·r₁ + h·r₂) + h·(b₁ + b₂)`. -/
theorem scale_combine {h : ℝ} (hh : 0 ≤ h) (r1 r2 b1 b2 : EReal) :
    (h : EReal) * ((r1 + b1) + (r2 + b2)) = ((h : EReal) * r1 + (h : EReal) * r2) + (h : EReal) * (b1 + b2) := by
  rw [coe_mul_add hh, coe_mul_add hh, coe_mul_add hh, coe_mul_add hh]
  exact add_add_add_comm _ _ _ _

end Cert.Sage

end
-- ==== Proof.Spec.lean ====
/-
  The two results of the heterogeneous SAGE layer as functions of whole arrays, in the two arrangements the
  programs compute them in, and the laws that join the arrangements.

  For one relation, with raw neighbour sums `S`, clamped counts `C`, destination rows `X` and weights `Wl`, `Wr`, the
  projection at (p, q) is  Σₖ (S(p,k) / C(p)) · Wl(k,q) + Σₖ X(p,k) · Wr(k,q).  The user result is one projection
  plus its bias; the item result is half the sum of two biased projections.  The kernels instead multiply each sum by a
  stored reciprocal column `R(p) = 1 / C(p)`, scale each projection by its own factor, and add one precombined bias
  row.  The counts are clamped below by one, hence not zero, and a nonnegative real factor distributes over sums of
  extended reals: the arrangements agree on every extended real, finite or not.
-/
import proofs.«133394_j16338055594019_2_alg».proof.Proof.MeanLaw
import Idealize.ShloMosaic.Lib.ValueIdx
import Idealize.ShloMosaic.Lib.Pipeline.Value

noncomputable section

namespace Cert.Sage

open Idealize.ShloMosaic Idealize.ShloMosaic.ValueIdx

/-- Node rows by features. -/ abbrev Rows : Shape := ⟨2, ![100000, 128]⟩
/-- One entry per node. -/ abbrev Nodes : Shape := ⟨1, ![100000]⟩
/-- One entry per node, as a column. -/ abbrev Col : Shape := ⟨2, ![100000, 1]⟩
/-- A weight matrix. -/ abbrev Wt : Shape := ⟨2, ![128, 128]⟩
/-- One entry per feature. -/ abbrev Feat : Shape := ⟨1, ![128]⟩
/-- One entry per feature, as a row. -/ abbrev FeatRow : Shape := ⟨2, ![1, 128]⟩

/-- One relation's projection at (p, q): the mean neighbour row through `Wl` plus the destination row through `Wr`. -/
def proj (S : Rows.Idx → EReal) (C : Nodes.Idx → EReal) (X : Rows.Idx → EReal) (Wl Wr : Wt.Idx → EReal) (p : Fin 100000) (q : Fin 128) : EReal :=
  (∑ k : Fin 128, Ideal.div (S (ix2 p k)) (C (ix1 p)) * Wl (ix2 k q)) + ∑ k : Fin 128, X (ix2 p k) * Wr (ix2 k q)

/-- The user result at (p, q): one biased projection. -/
def userAt (S : Rows.Idx → EReal) (C : Nodes.Idx → EReal) (X : Rows.Idx → EReal) (Wl Wr : Wt.Idx → EReal) (b : Feat.Idx → EReal)
    (p : Fin 100000) (q : Fin 128) : EReal := proj S C X Wl Wr p q + b (ix1 q)

/-- The user result, as an array. -/
def userOut (S : Rows.Idx → EReal) (C : Nodes.Idx → EReal) (X : Rows.Idx → EReal) (Wl Wr : Wt.Idx → EReal) (b : Feat.Idx → EReal) :
    Rows.Idx → EReal := fun i => userAt S C X Wl Wr b (i 0) (i 1)

/-- The item result at (p, q): half the sum of two biased projections. -/
def itemAt (S1 : Rows.Idx → EReal) (C1 : Nodes.Idx → EReal) (S2 : Rows.Idx → EReal) (C2 : Nodes.Idx → EReal) (X : Rows.Idx → EReal)
    (Wl1 Wr1 Wl2 Wr2 : Wt.Idx → EReal) (b1 b2 : Feat.Idx → EReal) (p : Fin 100000) (q : Fin 128) : EReal :=
  Ideal.ofBits .f32 0x3F000000#32
    * ((proj S1 C1 X Wl1 Wr1 p q + b1 (ix1 q)) + (proj S2 C2 X Wl2 Wr2 p q + b2 (ix1 q)))

/-- The item result, as an array. -/
def itemOut (S1 : Rows.Idx → EReal) (C1 : Nodes.Idx → EReal) (S2 : Rows.Idx → EReal) (C2 : Nodes.Idx → EReal) (X : Rows.Idx → EReal)
    (Wl1 Wr1 Wl2 Wr2 : Wt.Idx → EReal) (b1 b2 : Feat.Idx → EReal) : Rows.Idx → EReal := fun i =>
  itemAt S1 C1 S2 C2 X Wl1 Wr1 Wl2 Wr2 b1 b2 (i 0) (i 1)

/-- What the single-relation kernel leaves at (p, q), from the whole arrays it reads. -/
def userRowsAt (S : Rows.Idx → EReal) (R : Col.Idx → EReal) (X : Rows.Idx → EReal) (Wl Wr : Wt.Idx → EReal) (B : FeatRow.Idx → EReal)
    (p : Fin 100000) (q : Fin 128) : EReal :=
  Ideal.ofBits .f32 0x3F800000#32
      * ((∑ k : Fin 128, S (ix2 p k) * R (ix2 p 0) * Wl (ix2 k q)) + ∑ k : Fin 128, X (ix2 p k) * Wr (ix2 k q))
    + B (ix2 0 q)

/-- What the two-relation kernel leaves at (p, q), from the whole arrays it reads. -/
def itemRowsAt (S1 : Rows.Idx → EReal) (R1 : Col.Idx → EReal) (S2 : Rows.Idx → EReal) (R2 : Col.Idx → EReal) (X : Rows.Idx → EReal)
    (Wl1 Wr1 Wl2 Wr2 : Wt.Idx → EReal) (B : FeatRow.Idx → EReal) (p : Fin 100000) (q : Fin 128) : EReal :=
  (Ideal.ofBits .f32 0x3F000000#32
        * ((∑ k : Fin 128, S1 (ix2 p k) * R1 (ix2 p 0) * Wl1 (ix2 k q)) + ∑ k : Fin 128, X (ix2 p k) * Wr1 (ix2 k q))
      + Ideal.ofBits .f32 0x3F000000#32
        * ((∑ k : Fin 128, S2 (ix2 p k) * R2 (ix2 p 0) * Wl2 (ix2 k q)) + ∑ k : Fin 128, X (ix2 p k) * Wr2 (ix2 k q)))
    + B (ix2 0 q)

/-- With the reciprocal column in place of the division, the projection is the same. -/
theorem proj_of_recip (S : Rows.Idx → EReal) (R : Col.Idx → EReal) (C : Nodes.Idx → EReal) (X : Rows.Idx → EReal) (Wl Wr : Wt.Idx → EReal)
    (p : Fin 100000) (q : Fin 128) (hR : R (ix2 p 0) = Ideal.div 1 (C (ix1 p))) (hC : C (ix1 p) ≠ 0) :
    (∑ k : Fin 128, S (ix2 p k) * R (ix2 p 0) * Wl (ix2 k q)) + ∑ k : Fin 128, X (ix2 p k) * Wr (ix2 k q) = proj S C X Wl Wr p q := by
  unfold proj
  refine congrArg (· + _) (Finset.sum_congr rfl fun k _ => ?_)
  rw [hR, mul_recip_eq_div hC]

/-- The single-relation kernel's arrangement is the user result. -/
theorem user_law (S : Rows.Idx → EReal) (R : Col.Idx → EReal) (C : Nodes.Idx → EReal) (X : Rows.Idx → EReal) (Wl Wr : Wt.Idx → EReal)
    (B : FeatRow.Idx → EReal) (b : Feat.Idx → EReal) (p : Fin 100000) (q : Fin 128)
    (hR : R (ix2 p 0) = Ideal.div (Ideal.ofBits .f32 0x3F800000#32) (C (ix1 p)))
    (hC : C (ix1 p) ≠ 0) (hB : B (ix2 0 q) = b (ix1 q)) :
    userRowsAt S R X Wl Wr B p q = userAt S C X Wl Wr b p q := by
  unfold userRowsAt userAt
  rw [proj_of_recip S R C X Wl Wr p q (by rw [hR, ofBits_one]) hC, ofBits_one, one_mul, hB]

/-- The two-relation kernel's arrangement is the item result. -/
theorem item_law (S1 : Rows.Idx → EReal) (R1 : Col.Idx → EReal) (C1 : Nodes.Idx → EReal) (S2 : Rows.Idx → EReal) (R2 : Col.Idx → EReal) (C2 : Nodes.Idx → EReal)
    (X : Rows.Idx → EReal) (Wl1 Wr1 Wl2 Wr2 : Wt.Idx → EReal) (B : FeatRow.Idx → EReal) (b1 b2 : Feat.Idx → EReal) (p : Fin 100000) (q : Fin 128)
    (hR1 : R1 (ix2 p 0) = Ideal.div (Ideal.ofBits .f32 0x3F800000#32) (C1 (ix1 p))) (hC1 : C1 (ix1 p) ≠ 0)
    (hR2 : R2 (ix2 p 0) = Ideal.div (Ideal.ofBits .f32 0x3F800000#32) (C2 (ix1 p))) (hC2 : C2 (ix1 p) ≠ 0)
    (hB : B (ix2 0 q) = Ideal.ofBits .f32 0x3F000000#32 * (b1 (ix1 q) + b2 (ix1 q))) :
    itemRowsAt S1 R1 S2 R2 X Wl1 Wr1 Wl2 Wr2 B p q = itemAt S1 C1 S2 C2 X Wl1 Wr1 Wl2 Wr2 b1 b2 p q := by
  unfold itemRowsAt itemAt
  rw [proj_of_recip S1 R1 C1 X Wl1 Wr1 p q (by rw [hR1, ofBits_one]) hC1,
    proj_of_recip S2 R2 C2 X Wl2 Wr2 p q (by rw [hR2, ofBits_one]) hC2, hB, ofBits_half]
  exact (scale_combine (by norm_num) _ _ _ _).symm

/-! ### The small layout facts the stages need -/

/-- A quotient of two per-node vectors stored as a column, read at row `p`. -/
theorem recip_col_at (one C : Nodes.Idx → EReal) (h : Nodes.ShapeCasts Col) (p : Fin 100000) :
    shapeCast Col (Host.divf (F := Ideal) (φ := .f32) one C) h (ix2 p 0) = Ideal.div (one (ix1 p)) (C (ix1 p)) := by
  rw [shapeCast_apply _ h (ix2 p 0) (ix1 p) (by rw [Shape.rowMajor_val_one, Shape.rowMajor_val_two]; show p.val = p.val * 1 + (0 : Fin 1).val; simp)]
  rfl

/-- A per-feature vector stored as a row, read at column `q`. -/
theorem feat_row_at {α : Type} (v : Feat.Idx → α) (h : Feat.ShapeCasts FeatRow) (q : Fin 128) :
    shapeCast FeatRow v h (ix2 0 q) = v (ix1 q) :=
  shapeCast_apply _ h (ix2 0 q) (ix1 q) (by rw [Shape.rowMajor_val_one, Shape.rowMajor_val_two]; show q.val = (0 : Fin 1).val * 128 + q.val; simp)

end Cert.Sage

end
-- ==== Proof.UserArray.lean ====
/-
  The single-relation combine, from row blocks to the whole array.

  Grid point `t` of the second region takes rows 4000·t … 4000·t + 3999 of the neighbour sums, of the reciprocal-count
  column and of the destination rows, the two weight matrices and the bias row whole, and writes back rows
  4000·t … 4000·t + 3999 of the result.  So the result array is ONE function of the arrays the region finds:
  entry (i, j) is 1 · (Σₖ S(i,k)·R(i)·Wl(k,j) + Σₖ X(i,k)·Wr(k,j)) + B(j).  The 25 blocks tile the 100000 rows.
-/
import proofs.«133394_j16338055594019_2_alg».proof.Proof.Gen.KernelIdeal.Frame
import proofs.«133394_j16338055594019_2_alg».proof.Proof.Entry
import proofs.«133394_j16338055594019_2_alg».proof.Proof.Spec
import Idealize.ShloMosaic.Lib.Pipeline.Value

set_option maxRecDepth 16384

noncomputable section

namespace Cert.KernelIdeal.UserArray

open Cert.KernelIdeal Cert.KernelIdeal.Gen Cert.KernelIdeal.Entry
open Idealize.ShloMosaic Idealize.ShloMosaic.TcCoe Idealize.SL.Sem Idealize.ShloMosaic.ValueIdx
open Idealize.ShloMosaic.Pipeline (Dat)

/-- The result array of the single-relation combine, from the whole arrays the region finds. -/
def rows (S : S100000x128.Idx → EReal) (R : S100000x1.Idx → EReal) (X : S100000x128.Idx → EReal)
    (Wl Wr : S128x128.Idx → EReal) (B : S1x128.Idx → EReal) : S100000x128.Idx → EReal := fun i =>
  Cert.Sage.userRowsAt S R X Wl Wr B (i 0) (i 1)

theorem hz : (![0, 0] : Fin 2 → Nat) = fun _ => 0 := funext fun a => by fin_cases a <;> rfl

/-- The printed index maps over the 25 grid points: the three row windows move with the output's row block, every
    other block index is zero, and the output's row block is the point's number. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

set_option maxHeartbeats 1600000 in
/-- What point `t` writes back is block `t` of `rows` of the arrays the region finds. -/
theorem flushed_eq (c : Dev nD) (t : Fin cfg1.N) :
    (dat1 V c).flushed 6 t = ((cfg1.win 6).blk t).view.read (Elt Ideal)
      (rows (V c main_v40) (V c main_v49) (V c main_arg0) (V c main_arg9) (V c main_arg10) (V c main_v80)) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz, View.ld_unit_zero (S := S128x128) hz,
    View.ld_unit_zero (S := S1x128) hz]
  obtain ⟨e00, e01, e10, e11, e20, e21, e30, e31, e40, e41, e50, e51, e60, e61⟩ := idx_facts t
  refine funext fun (j : S4000x128.Idx) => ?_
  have hj0 : (j 0).val < 4000 := (j 0).isLt
  have hj1 : (j 1).val < 128 := (j 1).isLt
  show k1_pay1 (F := Ideal) (iblk1 V c 0 t) (iblk1 V c 1 t) (iblk1 V c 2 t) (iblk1 V c 3 t) (iblk1 V c 4 t) (iblk1 V c 5 t) j
    = rows (V c main_v40) (V c main_v49) (V c main_arg0) (V c main_arg9) (V c main_arg10) (V c main_v80) (((cfg1.win 6).blk t).view.emb j)
  refine (congrArg (k1_pay1 (F := Ideal) (iblk1 V c 0 t) (iblk1 V c 1 t) (iblk1 V c 2 t) (iblk1 V c 3 t) (iblk1 V c 4 t) (iblk1 V c 5 t)) (eq_ix2 j)).trans ?_
  refine (user_entry (iblk1 V c 0 t) (iblk1 V c 1 t) (iblk1 V c 2 t) (iblk1 V c 3 t) (iblk1 V c 4 t) (iblk1 V c 5 t) (j 0) (j 1)).trans ?_
  show _ = Cert.Sage.userRowsAt (V c main_v40) (V c main_v49) (V c main_arg0) (V c main_arg9) (V c main_arg10) (V c main_v80)
    ((((cfg1.win 6).blk t).view.emb j) 0) ((((cfg1.win 6).blk t).view.emb j) 1)
  unfold Cert.Sage.userRowsAt
  have h0 : ∀ k : Fin 128, iblk1 V c 0 t (ix2 (j 0) k) = V c main_v40 (ix2 ((((cfg1.win 6).blk t).view.emb j) 0) k) := fun k => by
    show V c main_v40 (((cfg1.win 0).blk t).view.emb (ix2 (j 0) k)) = _
    refine congrArg _ (funext fun a => Fin.ext ?_)
    match a with
    | ⟨0, _⟩ => show win1_0.index t (0 : Fin 2) * 4000 + 1 * (j 0).val = win1_6.index t (0 : Fin 2) * 4000 + 1 * (j 0).val; omega
    | ⟨1, _⟩ => show win1_0.index t (1 : Fin 2) * 128 + 1 * k.val = k.val; omega
  have h1 : iblk1 V c 1 t (ix2 (j 0) 0) = V c main_v49 (ix2 ((((cfg1.win 6).blk t).view.emb j) 0) 0) := by
    show V c main_v49 (((cfg1.win 1).blk t).view.emb (ix2 (j 0) 0)) = _
    refine congrArg _ (funext fun a => Fin.ext ?_)
    match a with
    | ⟨0, _⟩ => show win1_1.index t (0 : Fin 2) * 4000 + 1 * (j 0).val = win1_6.index t (0 : Fin 2) * 4000 + 1 * (j 0).val; omega
    | ⟨1, _⟩ => show win1_1.index t (1 : Fin 2) * 1 + 1 * (0 : Fin 1).val = (0 : Fin 1).val; simp only [Fin.val_zero]; omega
  have h2 : ∀ k : Fin 128, iblk1 V c 2 t (ix2 (j 0) k) = V c main_arg0 (ix2 ((((cfg1.win 6).blk t).view.emb j) 0) k) := fun k => by
    show V c main_arg0 (((cfg1.win 2).blk t).view.emb (ix2 (j 0) k)) = _
    refine congrArg _ (funext fun a => Fin.ext ?_)
    match a with
    | ⟨0, _⟩ => show win1_2.index t (0 : Fin 2) * 4000 + 1 * (j 0).val = win1_6.index t (0 : Fin 2) * 4000 + 1 * (j 0).val; omega
    | ⟨1, _⟩ => show win1_2.index t (1 : Fin 2) * 128 + 1 * k.val = k.val; omega
  have h3 : ∀ k : Fin 128, iblk1 V c 3 t (ix2 k (j 1)) = V c main_arg9 (ix2 k ((((cfg1.win 6).blk t).view.emb j) 1)) := fun k => by
    show V c main_arg9 (((cfg1.win 3).blk t).view.emb (ix2 k (j 1))) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_6.index t (1 : Fin 2) * 128 + 1 * (j 1).val; omega
  have h4 : ∀ k : Fin 128, iblk1 V c 4 t (ix2 k (j 1)) = V c main_arg10 (ix2 k ((((cfg1.win 6).blk t).view.emb j) 1)) := fun k => by
    show V c main_arg10 (((cfg1.win 4).blk t).view.emb (ix2 k (j 1))) = _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_6.index t (1 : Fin 2) * 128 + 1 * (j 1).val; omega
  have h5 : iblk1 V c 5 t (ix2 0 (j 1)) = V c main_v80 (ix2 0 ((((cfg1.win 6).blk t).view.emb j) 1)) := by
    show V c main_v80 (((cfg1.win 5).blk t).view.emb (ix2 0 (j 1))) = _
    refine congrArg _ (funext fun a => Fin.ext ?_)
    match a with
    | ⟨0, _⟩ => show win1_5.index t (0 : Fin 2) * 1 + 1 * (0 : Fin 1).val = (0 : Fin 1).val; simp only [Fin.val_zero]; omega
    | ⟨1, _⟩ => show win1_5.index t (1 : Fin 2) * 128 + 1 * (j 1).val = win1_6.index t (1 : Fin 2) * 128 + 1 * (j 1).val; omega
  simp only [h0, h1, h2, h3, h4, h5]

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v81).slice (win1_6.rect t)).set ↔ _
  rw [View.set_slice_whole, Rect.mem_set_unit]
  exact Iff.rfl

/-- Every row lies in the block of the point numbered by its row divided by 4000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, -, -, -, -, -, -, -, e60, e61⟩ := idx_facts t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The result array after the region: `rows` of the arrays the region finds. -/
theorem final (c : Dev nD) : (dat1 V c).arrAt 6 cfg1.N
    = rows (V c main_v40) (V c main_v49) (V c main_arg0) (V c main_arg9) (V c main_arg10) (V c main_v80) :=
  (dat1 V c).arrAt_eq_of_cover 6 _ (fun t _ => flushed_eq V c t) cover

end Cert.KernelIdeal.UserArray

end
-- ==== Proof.ItemArray.lean ====
/-
  The two-relation combine, from row blocks to the whole array.

  Grid point `t` of the first region takes rows 4000·t … 4000·t + 3999 of both relations' neighbour sums and
  reciprocal-count columns and of the destination rows, the four weight matrices and the bias row whole, and writes
  back rows 4000·t … 4000·t + 3999 of the result.  So the result array is ONE function of the arrays the region
  finds: entry (i, j) is ½·(Σₖ S₁(i,k)·R₁(i)·Wl₁(k,j) + Σₖ X(i,k)·Wr₁(k,j)) + ½·(the same for the second relation)
  + B(j).  The 25 blocks tile the 100000 rows.
-/
import proofs.«133394_j16338055594019_2_alg».proof.Proof.Gen.KernelIdeal.Frame
import proofs.«133394_j16338055594019_2_alg».proof.Proof.Entry
import proofs.«133394_j16338055594019_2_alg».proof.Proof.Spec
import Idealize.ShloMosaic.Lib.Pipeline.Value

set_option maxRecDepth 16384

noncomputable section

namespace Cert.KernelIdeal.ItemArray

open Cert.KernelIdeal Cert.KernelIdeal.Gen Cert.KernelIdeal.Entry
open Idealize.ShloMosaic Idealize.ShloMosaic.TcCoe Idealize.SL.Sem Idealize.ShloMosaic.ValueIdx
open Idealize.ShloMosaic.Pipeline (Dat)

/-- The result array of the two-relation combine, from the whole arrays the region finds. -/
def rows (S1 : S100000x128.Idx → EReal) (R1 : S100000x1.Idx → EReal) (S2 : S100000x128.Idx → EReal) (R2 : S100000x1.Idx → EReal)
    (X : S100000x128.Idx → EReal) (Wl1 Wr1 Wl2 Wr2 : S128x128.Idx → EReal) (B : S1x128.Idx → EReal) : S100000x128.Idx → EReal := fun i =>
  Cert.Sage.itemRowsAt S1 R1 S2 R2 X Wl1 Wr1 Wl2 Wr2 B (i 0) (i 1)

theorem hz : (![0, 0] : Fin 2 → Nat) = fun _ => 0 := funext fun a => by fin_cases a <;> rfl

/-- The printed index maps over the 25 grid points: the five row windows move with the output's row block, every
    other block index is zero, and the output's row block is the point's number. -/
theorem idx_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = win0_10.index t (0 : Fin 2) ∧ win0_2.index t (1 : Fin 2) = 0
    ∧ win0_3.index t (0 : Fin 2) = win0_10.index t (0 : Fin 2) ∧ win0_3.index t (1 : Fin 2) = 0
    ∧ win0_4.index t (0 : Fin 2) = win0_10.index t (0 : Fin 2) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

variable (V : (c : Dev nD) → (b : Ref sig .tc) → Buf (Elt Ideal) ((c : Thread nD τ).loc b))

set_option maxHeartbeats 3200000 in
/-- What point `t` writes back is block `t` of `rows` of the arrays the region finds. -/
theorem flushed_eq (c : Dev nD) (t : Fin cfg0.N) :
    (dat0 V c).flushed 10 t = ((cfg0.win 10).blk t).view.read (Elt Ideal)
      (rows (V c main_v15) (V c main_v24) (V c main_v65) (V c main_v74) (V c main_arg1) (V c main_arg6) (V c main_arg7) (V c main_arg12) (V c main_arg13) (V c main_v78)) := by
  show (cfg0.win 10).cut (grid0.coords t) ((dat0 V c).after 10 t) = _
  rw [after0_10]
  unfold out0_10
  rw [View.canon_unit_zero hz]
  simp only [View.ld_unit_zero (S := S4000x128) hz, View.ld_unit_zero (S := S4000x1) hz, View.ld_unit_zero (S := S128x128) hz,
    View.ld_unit_zero (S := S1x128) hz]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun (j : S4000x128.Idx) => ?_
  have hj0 : (j 0).val < 4000 := (j 0).isLt
  have hj1 : (j 1).val < 128 := (j 1).isLt
  show k0_pay1 (F := Ideal) (k0_pay2 (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) j
    = rows (V c main_v15) (V c main_v24) (V c main_v65) (V c main_v74) (V c main_arg1) (V c main_arg6) (V c main_arg7) (V c main_arg12) (V c main_arg13) (V c main_v78) (((cfg0.win 10).blk t).view.emb j)
  refine (congrArg (k0_pay1 (F := Ideal) (k0_pay2 (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t)) (eq_ix2 j)).trans ?_
  refine (item_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (j 0) (j 1)).trans ?_
  show _ = Cert.Sage.itemRowsAt (V c main_v15) (V c main_v24) (V c main_v65) (V c main_v74) (V c main_arg1) (V c main_arg6) (V c main_arg7) (V c main_arg12) (V c main_arg13) (V c main_v78)
    ((((cfg0.win 10).blk t).view.emb j) 0) ((((cfg0.win 10).blk t).view.emb j) 1)
  unfold Cert.Sage.itemRowsAt
  have h0 : ∀ k : Fin 128, iblk0 V c 0 t (ix2 (j 0) k) = V c main_v15 (ix2 ((((cfg0.win 10).blk t).view.emb j) 0) k) := fun k => by
    show V c main_v15 (((cfg0.win 0).blk t).view.emb (ix2 (j 0) k)) = _
    refine congrArg _ (funext fun a => Fin.ext ?_)
    match a with
    | ⟨0, _⟩ => show win0_0.index t (0 : Fin 2) * 4000 + 1 * (j 0).val = win0_10.index t (0 : Fin 2) * 4000 + 1 * (j 0).val; omega
    | ⟨1, _⟩ => show win0_0.index t (1 : Fin 2) * 128 + 1 * k.val = k.val; omega
  have h1 : iblk0 V c 1 t (ix2 (j 0) 0) = V c main_v24 (ix2 ((((cfg0.win 10).blk t).view.emb j) 0) 0) := by
    show V c main_v24 (((cfg0.win 1).blk t).view.emb (ix2 (j 0) 0)) = _
    refine congrArg _ (funext fun a => Fin.ext ?_)
    match a with
    | ⟨0, _⟩ => show win0_1.index t (0 : Fin 2) * 4000 + 1 * (j 0).val = win0_10.index t (0 : Fin 2) * 4000 + 1 * (j 0).val; omega
    | ⟨1, _⟩ => show win0_1.index t (1 : Fin 2) * 1 + 1 * (0 : Fin 1).val = (0 : Fin 1).val; simp only [Fin.val_zero]; omega
  have h2 : ∀ k : Fin 128, iblk0 V c 2 t (ix2 (j 0) k) = V c main_v65 (ix2 ((((cfg0.win 10).blk t).view.emb j) 0) k) := fun k => by
    show V c main_v65 (((cfg0.win 2).blk t).view.emb (ix2 (j 0) k)) = _
    refine congrArg _ (funext fun a => Fin.ext ?_)
    match a with
    | ⟨0, _⟩ => show win0_2.index t (0 : Fin 2) * 4000 + 1 * (j 0).val = win0_10.index t (0 : Fin 2) * 4000 + 1 * (j 0).val; omega
    | ⟨1, _⟩ => show win0_2.index t (1 : Fin 2) * 128 + 1 * k.val = k.val; omega
  have h3 : iblk0 V c 3 t (ix2 (j 0) 0) = V c main_v74 (ix2 ((((cfg0.win 10).blk t).view.emb j) 0) 0) := by
    show V c main_v74 (((cfg0.win 3).blk t).view.emb (ix2 (j 0) 0)) = _
    refine congrArg _ (funext fun a => Fin.ext ?_)
    match a with
    | ⟨0, _⟩ => show win0_3.index t (0 : Fin 2) * 4000 + 1 * (j 0).val = win0_10.index t (0 : Fin 2) * 4000 + 1 * (j 0).val; omega
    | ⟨1, _⟩ => show win0_3.index t (1 : Fin 2) * 1 + 1 * (0 : Fin 1).val = (0 : Fin 1).val; simp only [Fin.val_zero]; omega
  have h4 : ∀ k : Fin 128, iblk0 V c 4 t (ix2 (j 0) k) = V c main_arg1 (ix2 ((((cfg0.win 10).blk t).view.emb j) 0) k) := fun k => by
    show V c main_arg1 (((cfg0.win 4).blk t).view.emb (ix2 (j 0) k)) = _
    refine congrArg _ (funext fun a => Fin.ext ?_)
    match a with
    | ⟨0, _⟩ => show win0_4.index t (0 : Fin 2) * 4000 + 1 * (j 0).val = win0_10.index t (0 : Fin 2) * 4000 + 1 * (j 0).val; omega
    | ⟨1, _⟩ => show win0_4.index t (1 : Fin 2) * 128 + 1 * k.val = k.val; omega
  have h5 : ∀ k : Fin 128, iblk0 V c 5 t (ix2 k (j 1)) = V c main_arg6 (ix2 k ((((cfg0.win 10).blk t).view.emb j) 1)) := fun k => by
    show V c main_arg6 (((cfg0.win 5).blk t).view.emb (ix2 k (j 1))) = _
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * (j 1).val = win0_10.index t (1 : Fin 2) * 128 + 1 * (j 1).val; omega
  have h6 : ∀ k : Fin 128, iblk0 V c 6 t (ix2 k (j 1)) = V c main_arg7 (ix2 k ((((cfg0.win 10).blk t).view.emb j) 1)) := fun k => by
    show V c main_arg7 (((cfg0.win 6).blk t).view.emb (ix2 k (j 1))) = _
    refine congrArg _ (funext fun a => Fin.ext ?_)
    match a with
    | ⟨0, _⟩ => show win0_6.index t (0 : Fin 2) * 128 + 1 * k.val = k.val; omega
    | ⟨1, _⟩ => show win0_6.index t (1 : Fin 2) * 128 + 1 * (j 1).val = win0_10.index t (1 : Fin 2) * 128 + 1 * (j 1).val; omega
  have h7 : ∀ k : Fin 128, iblk0 V c 7 t (ix2 k (j 1)) = V c main_arg12 (ix2 k ((((cfg0.win 10).blk t).view.emb j) 1)) := fun k => by
    show V c main_arg12 (((cfg0.win 7).blk t).view.emb (ix2 k (j 1))) = _
    refine congrArg _ (funext fun a => Fin.ext ?_)
    match a with
    | ⟨0, _⟩ => show win0_7.index t (0 : Fin 2) * 128 + 1 * k.val = k.val; omega
    | ⟨1, _⟩ => show win0_7.index t (1 : Fin 2) * 128 + 1 * (j 1).val = win0_10.index t (1 : Fin 2) * 128 + 1 * (j 1).val; omega
  have h8 : ∀ k : Fin 128, iblk0 V c 8 t (ix2 k (j 1)) = V c main_arg13 (ix2 k ((((cfg0.win 10).blk t).view.emb j) 1)) := fun k => by
    show V c main_arg13 (((cfg0.win 8).blk t).view.emb (ix2 k (j 1))) = _
    refine congrArg _ (funext fun a => Fin.ext ?_)
    match a with
    | ⟨0, _⟩ => show win0_8.index t (0 : Fin 2) * 128 + 1 * k.val = k.val; omega
    | ⟨1, _⟩ => show win0_8.index t (1 : Fin 2) * 128 + 1 * (j 1).val = win0_10.index t (1 : Fin 2) * 128 + 1 * (j 1).val; omega
  have h9 : iblk0 V c 9 t (ix2 0 (j 1)) = V c main_v78 (ix2 0 ((((cfg0.win 10).blk t).view.emb j) 1)) := by
    show V c main_v78 (((cfg0.win 9).blk t).view.emb (ix2 0 (j 1))) = _
    refine congrArg _ (funext fun a => Fin.ext ?_)
    match a with
    | ⟨0, _⟩ => show win0_9.index t (0 : Fin 2) * 1 + 1 * (0 : Fin 1).val = (0 : Fin 1).val; simp only [Fin.val_zero]; omega
    | ⟨1, _⟩ => show win0_9.index t (1 : Fin 2) * 128 + 1 * (j 1).val = win0_10.index t (1 : Fin 2) * 128 + 1 * (j 1).val; omega
  simp only [h0, h1, h2, h3, h4, h5, h6, h7, h8, h9]

/-- An index of the array is in point `t`'s block iff each coordinate is in the block's range on its axis. -/
theorem mem_blk (t : Fin cfg0.N) (i : S100000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v79).slice (win0_10.rect t)).set ↔ _
  rw [View.set_slice_whole, Rect.mem_set_unit]
  exact Iff.rfl

/-- Every row lies in the block of the point numbered by its row divided by 4000. -/
theorem cover (i : S100000x128.Idx) : ∃ t : Fin cfg0.N, (cfg0.win 10).flush t = true ∧ i ∈ ((cfg0.win 10).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, -, -, -, -, -, -, -, -, -, -, e10_0, e10_1⟩ := idx_facts t
  have ht : t.val = (i 0).val / 4000 := rfl
  refine ⟨t, flush0_10 t, ?_⟩
  rw [mem_blk]
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 128 ≤ (i 1).val ∧ (i 1).val < win0_10.index t (1 : Fin 2) * 128 + 128; omega

/-- The result array after the region: `rows` of the arrays the region finds. -/
theorem final (c : Dev nD) : (dat0 V c).arrAt 10 cfg0.N
    = rows (V c main_v15) (V c main_v24) (V c main_v65) (V c main_v74) (V c main_arg1) (V c main_arg6) (V c main_arg7) (V c main_arg12) (V c main_arg13) (V c main_v78) :=
  (dat0 V c).arrAt_eq_of_cover 10 _ (fun t _ => flushed_eq V c t) cover

end Cert.KernelIdeal.ItemArray

end
-- ==== Proof.UserStages.lean ====
/-
  What the single-relation combine finds in its six input arrays.

  The neighbour sums and reciprocal counts of the `rev` relation were computed by the host operations before the
  first region; the first region writes none of them, and the one host operation between the regions only reshapes
  the bias vector into a row.
-/
import proofs.«133394_j16338055594019_2_alg».proof.Proof.Gen.KernelIdeal.Frame
import proofs.«133394_j16338055594019_2_alg».proof.Proof.Gen.ReferenceIdeal.Read
import Idealize.ShloMosaic.Lib.StableHlo.Run
import Idealize.ShloMosaic.Lib.Tactic

set_option maxRecDepth 16384

noncomputable section

namespace Cert.KernelIdeal.UserStages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The raw neighbour sums of the `rev` relation. -/
theorem sum_rev (c : Dev nD) :
    (V3 m ρ c main_v40 : S100000x128.Idx → EReal) = Cert.ReferenceIdeal.Read.val_main_v42 (F := Ideal) (m ((c : Thread nD τ).loc main_arg1)) (m ((c : Thread nD τ).loc main_arg4)) := by
  show StableHlo.after hostOps1 (W2 m ρ c) (Proc.devRef .tc main_v40) = _
  after_results_simp
  rw [W2_of_ne m ρ c main_v40 (by decide)]
  show StableHlo.after hostOps0 (W0 m ρ c) (Proc.devRef .tc main_v40) = _
  after_results_simp <;> rfl

set_option maxHeartbeats 4000000 in
/-- The reciprocal clamped counts of the `rev` relation, as a column. -/
theorem recip_rev (c : Dev nD) :
    (V3 m ρ c main_v49 : S100000x1.Idx → EReal) = shapeCast S100000x1 (Host.divf (F := Ideal) (φ := .f32) (Cert.ReferenceIdeal.Read.val_main_v47 (F := Ideal)) (Cert.ReferenceIdeal.Read.val_main_v48 (F := Ideal) (m ((c : Thread nD τ).loc main_arg4)))) shapeCasts_S100000_S100000x1 := by
  show StableHlo.after hostOps1 (W2 m ρ c) (Proc.devRef .tc main_v49) = _
  after_results_simp
  rw [W2_of_ne m ρ c main_v49 (by decide)]
  show StableHlo.after hostOps0 (W0 m ρ c) (Proc.devRef .tc main_v49) = _
  after_results_simp <;> rfl

set_option maxHeartbeats 4000000 in
/-- Argument 0 is as launched. -/
theorem arg0 (c : Dev nD) :
    (V3 m ρ c main_arg0 : S100000x128.Idx → EReal) = (m ((c : Thread nD τ).loc main_arg0)) := by
  show StableHlo.after hostOps1 (W2 m ρ c) (Proc.devRef .tc main_arg0) = _
  after_results_simp
  rw [W2_of_ne m ρ c main_arg0 (by decide)]
  show StableHlo.after hostOps0 (W0 m ρ c) (Proc.devRef .tc main_arg0) = _
  after_results_simp <;> rfl

set_option maxHeartbeats 4000000 in
/-- Argument 9 is as launched. -/
theorem arg9 (c : Dev nD) :
    (V3 m ρ c main_arg9 : S128x128.Idx → EReal) = (m ((c : Thread nD τ).loc main_arg9)) := by
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp <;> rfl

set_option maxHeartbeats 4000000 in
/-- Argument 10 is as launched. -/
theorem arg10 (c : Dev nD) :
    (V3 m ρ c main_arg10 : S128x128.Idx → EReal) = (m ((c : Thread nD τ).loc main_arg10)) := by
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp <;> rfl

set_option maxHeartbeats 4000000 in
/-- The bias row: the `rev` relation's bias vector reshaped. -/
theorem bias (c : Dev nD) :
    (V3 m ρ c main_v80 : S1x128.Idx → EReal) = shapeCast (α := EReal) S1x128 (m ((c : Thread nD τ).loc main_arg11)) shapeCasts_S128_S1x128 := by
  show StableHlo.after hostOps1 (W2 m ρ c) (Proc.devRef .tc main_v80) = _
  after_results_simp
  rw [W2_of_ne m ρ c main_arg11 (by decide)]
  show shapeCast _ (StableHlo.after hostOps0 (W0 m ρ c) (Proc.devRef .tc main_arg11)) _ = _
  after_results_simp <;> rfl

end Cert.KernelIdeal.UserStages

end
-- ==== Proof.ItemStages.lean ====
/-
  What the two-relation combine finds in its ten input arrays.

  The host operations before the first region gather the source rows along each edge, add them into their
  destination rows, count the edges into each destination, clamp the count below by one, and take its
  reciprocal as a [100000,1] column; the bias row is half the sum of the two relations' biases.  The sums
  and the clamped counts are the very stages the reference computes (a change of float format around the
  gather is the identity on extended reals), so they are named by the reference's stages.
-/
import proofs.«133394_j16338055594019_2_alg».proof.Proof.Gen.KernelIdeal.Frame
import proofs.«133394_j16338055594019_2_alg».proof.Proof.Gen.ReferenceIdeal.Read
import Idealize.ShloMosaic.Lib.StableHlo.Run
import Idealize.ShloMosaic.Lib.Tactic

set_option maxRecDepth 16384

noncomputable section

namespace Cert.KernelIdeal.ItemStages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The raw neighbour sums of the `buys` relation. -/
theorem sum_buys (c : Dev nD) :
    (V1 m ρ c main_v15 : S100000x128.Idx → EReal) = Cert.ReferenceIdeal.Read.val_main_v13 (F := Ideal) (m ((c : Thread nD τ).loc main_arg0)) (m ((c : Thread nD τ).loc main_arg3)) := by
  show StableHlo.after hostOps0 (W0 m ρ c) (Proc.devRef .tc main_v15) = _
  after_results_simp <;> rfl

set_option maxHeartbeats 4000000 in
/-- The reciprocal clamped counts of the `buys` relation, as a column. -/
theorem recip_buys (c : Dev nD) :
    (V1 m ρ c main_v24 : S100000x1.Idx → EReal) = shapeCast S100000x1 (Host.divf (F := Ideal) (φ := .f32) (Cert.ReferenceIdeal.Read.val_main_v18 (F := Ideal)) (Cert.ReferenceIdeal.Read.val_main_v19 (F := Ideal) (m ((c : Thread nD τ).loc main_arg3)))) shapeCasts_S100000_S100000x1 := by
  show StableHlo.after hostOps0 (W0 m ρ c) (Proc.devRef .tc main_v24) = _
  after_results_simp <;> rfl

set_option maxHeartbeats 4000000 in
/-- The raw neighbour sums of the `tags` relation. -/
theorem sum_tags (c : Dev nD) :
    (V1 m ρ c main_v65 : S100000x128.Idx → EReal) = Cert.ReferenceIdeal.Read.val_main_v71 (F := Ideal) (m ((c : Thread nD τ).loc main_arg2)) (m ((c : Thread nD τ).loc main_arg5)) := by
  show StableHlo.after hostOps0 (W0 m ρ c) (Proc.devRef .tc main_v65) = _
  after_results_simp <;> rfl

set_option maxHeartbeats 4000000 in
/-- The reciprocal clamped counts of the `tags` relation, as a column. -/
theorem recip_tags (c : Dev nD) :
    (V1 m ρ c main_v74 : S100000x1.Idx → EReal) = shapeCast S100000x1 (Host.divf (F := Ideal) (φ := .f32) (Cert.ReferenceIdeal.Read.val_main_v76 (F := Ideal)) (Cert.ReferenceIdeal.Read.val_main_v77 (F := Ideal) (m ((c : Thread nD τ).loc main_arg5)))) shapeCasts_S100000_S100000x1 := by
  show StableHlo.after hostOps0 (W0 m ρ c) (Proc.devRef .tc main_v74) = _
  after_results_simp <;> rfl

set_option maxHeartbeats 4000000 in
/-- The bias row: half the sum of the two relations' biases. -/
theorem bias (c : Dev nD) :
    (V1 m ρ c main_v78 : S1x128.Idx → EReal) = shapeCast S1x128 (mulf (F := Ideal) (φ := .f32) (broadcastInDim S128 ![] bcast_S_S128 (constant (F := Ideal) S_ .f32 0x3F000000#32)) (addf (F := Ideal) (φ := .f32) (m ((c : Thread nD τ).loc main_arg8)) (m ((c : Thread nD τ).loc main_arg14)))) shapeCasts_S128_S1x128 := by
  show StableHlo.after hostOps0 (W0 m ρ c) (Proc.devRef .tc main_v78) = _
  after_results_simp <;> rfl

end Cert.KernelIdeal.ItemStages

end
-- ==== Proof.ItemArgs.lean ====
/-
  The arguments the two-relation combine reads directly.

  No host operation before the first region writes an argument's buffer, so the destination rows and the four
  weight matrices are found as launched.
-/
import proofs.«133394_j16338055594019_2_alg».proof.Proof.Gen.KernelIdeal.Frame
import proofs.«133394_j16338055594019_2_alg».proof.Proof.Gen.ReferenceIdeal.Read
import Idealize.ShloMosaic.Lib.StableHlo.Run
import Idealize.ShloMosaic.Lib.Tactic

set_option maxRecDepth 16384

noncomputable section

namespace Cert.KernelIdeal.ItemArgs

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- Argument 1 is as launched. -/
theorem arg1 (c : Dev nD) :
    (V1 m ρ c main_arg1 : S100000x128.Idx → EReal) = (m ((c : Thread nD τ).loc main_arg1)) := by
  show StableHlo.after hostOps0 (W0 m ρ c) (Proc.devRef .tc main_arg1) = _
  after_results_simp <;> rfl

set_option maxHeartbeats 4000000 in
/-- Argument 6 is as launched. -/
theorem arg6 (c : Dev nD) :
    (V1 m ρ c main_arg6 : S128x128.Idx → EReal) = (m ((c : Thread nD τ).loc main_arg6)) := by
  show StableHlo.after hostOps0 (W0 m ρ c) (Proc.devRef .tc main_arg6) = _
  after_results_simp <;> rfl

set_option maxHeartbeats 4000000 in
/-- Argument 7 is as launched. -/
theorem arg7 (c : Dev nD) :
    (V1 m ρ c main_arg7 : S128x128.Idx → EReal) = (m ((c : Thread nD τ).loc main_arg7)) := by
  show StableHlo.after hostOps0 (W0 m ρ c) (Proc.devRef .tc main_arg7) = _
  after_results_simp <;> rfl

set_option maxHeartbeats 4000000 in
/-- Argument 12 is as launched. -/
theorem arg12 (c : Dev nD) :
    (V1 m ρ c main_arg12 : S128x128.Idx → EReal) = (m ((c : Thread nD τ).loc main_arg12)) := by
  show StableHlo.after hostOps0 (W0 m ρ c) (Proc.devRef .tc main_arg12) = _
  after_results_simp <;> rfl

set_option maxHeartbeats 4000000 in
/-- Argument 13 is as launched. -/
theorem arg13 (c : Dev nD) :
    (V1 m ρ c main_arg13 : S128x128.Idx → EReal) = (m ((c : Thread nD τ).loc main_arg13)) := by
  show StableHlo.after hostOps0 (W0 m ρ c) (Proc.devRef .tc main_arg13) = _
  after_results_simp <;> rfl

end Cert.KernelIdeal.ItemArgs

end
-- ==== Proof.RefValue.lean ====
/-
  The reference's two results are the specification's arrays.

  Read one stage at a time, entry (p, q) of the reference's user result is a sum over the 128 features of
  (neighbour sum / clamped count) · weight, plus the destination row through the second weight, plus the bias;
  its item result is one half of the sum of two such biased projections.  The neighbour sums and the clamped
  counts stay the named stages they are; every other stage is read at its index.  A clamped count is a maximum
  with one, so it is never zero.
-/
import proofs.«133394_j16338055594019_2_alg».proof.Proof.Gen.ReferenceIdeal.Read
import proofs.«133394_j16338055594019_2_alg».proof.Proof.Spec

noncomputable section

namespace Cert.ReferenceIdeal.RefValue

open Cert.ReferenceIdeal Cert.ReferenceIdeal.Read Cert.Sage
open Idealize.ShloMosaic Idealize.ShloMosaic.ValueIdx

/-! ### The composed index functions of the stages, as literal coordinates -/

theorem lidx23 (i : S100000x128.Idx) (k : Fin 128) : lidx_main_v23 i k = ix2 (i 0) k :=
  funext fun a => Fin.ext (by match a with | ⟨0, _⟩ => rfl | ⟨1, _⟩ => rfl)
theorem ridx23 (i : S100000x128.Idx) (k : Fin 128) : ridx_main_v23 i k = ix2 k (i 1) :=
  funext fun a => Fin.ext (by match a with | ⟨0, _⟩ => rfl | ⟨1, _⟩ => rfl)
theorem lidx24 (i : S100000x128.Idx) (k : Fin 128) : lidx_main_v24 i k = ix2 (i 0) k :=
  funext fun a => Fin.ext (by match a with | ⟨0, _⟩ => rfl | ⟨1, _⟩ => rfl)
theorem ridx24 (i : S100000x128.Idx) (k : Fin 128) : ridx_main_v24 i k = ix2 k (i 1) :=
  funext fun a => Fin.ext (by match a with | ⟨0, _⟩ => rfl | ⟨1, _⟩ => rfl)
theorem lidx52 (i : S100000x128.Idx) (k : Fin 128) : lidx_main_v52 i k = ix2 (i 0) k :=
  funext fun a => Fin.ext (by match a with | ⟨0, _⟩ => rfl | ⟨1, _⟩ => rfl)
theorem ridx52 (i : S100000x128.Idx) (k : Fin 128) : ridx_main_v52 i k = ix2 k (i 1) :=
  funext fun a => Fin.ext (by match a with | ⟨0, _⟩ => rfl | ⟨1, _⟩ => rfl)
theorem lidx53 (i : S100000x128.Idx) (k : Fin 128) : lidx_main_v53 i k = ix2 (i 0) k :=
  funext fun a => Fin.ext (by match a with | ⟨0, _⟩ => rfl | ⟨1, _⟩ => rfl)
theorem ridx53 (i : S100000x128.Idx) (k : Fin 128) : ridx_main_v53 i k = ix2 k (i 1) :=
  funext fun a => Fin.ext (by match a with | ⟨0, _⟩ => rfl | ⟨1, _⟩ => rfl)
theorem lidx81 (i : S100000x128.Idx) (k : Fin 128) : lidx_main_v81 i k = ix2 (i 0) k :=
  funext fun a => Fin.ext (by match a with | ⟨0, _⟩ => rfl | ⟨1, _⟩ => rfl)
theorem ridx81 (i : S100000x128.Idx) (k : Fin 128) : ridx_main_v81 i k = ix2 k (i 1) :=
  funext fun a => Fin.ext (by match a with | ⟨0, _⟩ => rfl | ⟨1, _⟩ => rfl)
theorem lidx82 (i : S100000x128.Idx) (k : Fin 128) : lidx_main_v82 i k = ix2 (i 0) k :=
  funext fun a => Fin.ext (by match a with | ⟨0, _⟩ => rfl | ⟨1, _⟩ => rfl)
theorem ridx82 (i : S100000x128.Idx) (k : Fin 128) : ridx_main_v82 i k = ix2 k (i 1) :=
  funext fun a => Fin.ext (by match a with | ⟨0, _⟩ => rfl | ⟨1, _⟩ => rfl)

theorem cnt_buys (i : S100000x128.Idx) (k : Fin 128) : idx_main_v20 (idx_main_v21 (ix2 (i 0) k)) = ix1 (i 0) :=
  funext fun a => Fin.ext (by match a with | ⟨0, _⟩ => rfl)
theorem cnt_rev (i : S100000x128.Idx) (k : Fin 128) : idx_main_v49 (idx_main_v50 (ix2 (i 0) k)) = ix1 (i 0) :=
  funext fun a => Fin.ext (by match a with | ⟨0, _⟩ => rfl)
theorem cnt_tags (i : S100000x128.Idx) (k : Fin 128) : idx_main_v78 (idx_main_v79 (ix2 (i 0) k)) = ix1 (i 0) :=
  funext fun a => Fin.ext (by match a with | ⟨0, _⟩ => rfl)
theorem bias_buys (i : S100000x128.Idx) : idx_main_v26 (idx_main_v27 i) = ix1 (i 1) :=
  funext fun a => Fin.ext (by match a with | ⟨0, _⟩ => rfl)
theorem bias_rev (i : S100000x128.Idx) : idx_main_v55 (idx_main_v56 i) = ix1 (i 1) :=
  funext fun a => Fin.ext (by match a with | ⟨0, _⟩ => rfl)
theorem bias_tags (i : S100000x128.Idx) : idx_main_v84 (idx_main_v85 i) = ix1 (i 1) :=
  funext fun a => Fin.ext (by match a with | ⟨0, _⟩ => rfl)

/-! ### The clamped counts are not zero, and the vectors of ones are ones -/

theorem ones_buys (j : S100000.Idx) : val_main_v18 (F := Ideal) j = Ideal.ofBits .f32 0x3F800000#32 :=
  (val_main_v18_apply j).trans (val_main_cst_3_apply _)
theorem ones_rev (j : S100000.Idx) : val_main_v47 (F := Ideal) j = Ideal.ofBits .f32 0x3F800000#32 :=
  (val_main_v47_apply j).trans (val_main_cst_9_apply _)
theorem ones_tags (j : S100000.Idx) : val_main_v76 (F := Ideal) j = Ideal.ofBits .f32 0x3F800000#32 :=
  (val_main_v76_apply j).trans (val_main_cst_15_apply _)

theorem count_buys_ne_zero (x3 : (⟨S2x1000000, .i32⟩ : BufTy).Contents (Elt Ideal)) (j : S100000.Idx) : val_main_v19 (F := Ideal) x3 j ≠ 0 := by
  rw [val_main_v19_apply, ones_buys]
  show max _ (Ideal.ofBits .f32 0x3F800000#32) ≠ 0
  rw [ofBits_one]; exact max_one_ne_zero _
theorem count_rev_ne_zero (x4 : (⟨S2x1000000, .i32⟩ : BufTy).Contents (Elt Ideal)) (j : S100000.Idx) : val_main_v48 (F := Ideal) x4 j ≠ 0 := by
  rw [val_main_v48_apply, ones_rev]
  show max _ (Ideal.ofBits .f32 0x3F800000#32) ≠ 0
  rw [ofBits_one]; exact max_one_ne_zero _
theorem count_tags_ne_zero (x5 : (⟨S2x1000000, .i32⟩ : BufTy).Contents (Elt Ideal)) (j : S100000.Idx) : val_main_v77 (F := Ideal) x5 j ≠ 0 := by
  rw [val_main_v77_apply, ones_tags]
  show max _ (Ideal.ofBits .f32 0x3F800000#32) ≠ 0
  rw [ofBits_one]; exact max_one_ne_zero _

/-! ### The quotient stage at (p, k): the neighbour sum over the clamped count of row p -/

theorem quot_buys (x0 : (⟨S100000x128, .f32⟩ : BufTy).Contents (Elt Ideal)) (x3 : (⟨S2x1000000, .i32⟩ : BufTy).Contents (Elt Ideal)) (i : S100000x128.Idx) (k : Fin 128) :
    val_main_v22 (F := Ideal) x0 x3 (ix2 (i 0) k)
      = Ideal.div (val_main_v13 (F := Ideal) x0 x3 (ix2 (i 0) k)) (val_main_v19 (F := Ideal) x3 (ix1 (i 0))) := by
  rw [val_main_v22_apply, val_main_v21_apply, val_main_v20_apply, cnt_buys]
  rfl
theorem quot_rev (x1 : (⟨S100000x128, .f32⟩ : BufTy).Contents (Elt Ideal)) (x4 : (⟨S2x1000000, .i32⟩ : BufTy).Contents (Elt Ideal)) (i : S100000x128.Idx) (k : Fin 128) :
    val_main_v51 (F := Ideal) x1 x4 (ix2 (i 0) k)
      = Ideal.div (val_main_v42 (F := Ideal) x1 x4 (ix2 (i 0) k)) (val_main_v48 (F := Ideal) x4 (ix1 (i 0))) := by
  rw [val_main_v51_apply, val_main_v50_apply, val_main_v49_apply, cnt_rev]
  rfl
theorem quot_tags (x2 : (⟨S10000x128, .f32⟩ : BufTy).Contents (Elt Ideal)) (x5 : (⟨S2x1000000, .i32⟩ : BufTy).Contents (Elt Ideal)) (i : S100000x128.Idx) (k : Fin 128) :
    val_main_v80 (F := Ideal) x2 x5 (ix2 (i 0) k)
      = Ideal.div (val_main_v71 (F := Ideal) x2 x5 (ix2 (i 0) k)) (val_main_v77 (F := Ideal) x5 (ix1 (i 0))) := by
  rw [val_main_v80_apply, val_main_v79_apply, val_main_v78_apply, cnt_tags]
  rfl

/-! ### The two results -/

/-- The reference's user result is the specification's, of the `rev` relation's sums and clamped counts. -/
theorem user_eq (x0 x1 : (⟨S100000x128, .f32⟩ : BufTy).Contents (Elt Ideal)) (x4 : (⟨S2x1000000, .i32⟩ : BufTy).Contents (Elt Ideal)) (x9 x10 : (⟨S128x128, .f32⟩ : BufTy).Contents (Elt Ideal)) (x11 : (⟨S128, .f32⟩ : BufTy).Contents (Elt Ideal)) :
    val_main_v57 (F := Ideal) x0 x1 x4 x9 x10 x11
      = userOut (val_main_v42 (F := Ideal) x1 x4) (val_main_v48 (F := Ideal) x4) x0 x9 x10 x11 := by
  funext i
  rw [val_main_v57_apply, val_main_v54_apply, val_main_v52_apply, val_main_v53_apply, val_main_v56_apply, val_main_v55_apply]
  show _ = userAt (val_main_v42 (F := Ideal) x1 x4) (val_main_v48 (F := Ideal) x4) x0 x9 x10 x11 (i 0) (i 1)
  unfold userAt proj
  simp only [lidx52, ridx52, lidx53, ridx53, bias_rev, Ideal.addf_def]
  have hA : (∑ k : Fin 128, val_main_v51 (F := Ideal) x1 x4 (ix2 (i 0) k) * x9 (ix2 k (i 1)))
      = ∑ k : Fin 128, Ideal.div (val_main_v42 (F := Ideal) x1 x4 (ix2 (i 0) k)) (val_main_v48 (F := Ideal) x4 (ix1 (i 0))) * x9 (ix2 k (i 1)) :=
    Finset.sum_congr rfl fun k _ => congrArg (· * x9 (ix2 k (i 1))) (quot_rev x1 x4 i k)
  exact congrArg (fun z => z + (∑ k : Fin 128, x0 (ix2 (i 0) k) * x10 (ix2 k (i 1))) + x11 (ix1 (i 1))) hA

/-- The reference's item result is the specification's, of the `buys` and `tags` relations' sums and clamped counts. -/
theorem item_eq (x0 x1 : (⟨S100000x128, .f32⟩ : BufTy).Contents (Elt Ideal)) (x2 : (⟨S10000x128, .f32⟩ : BufTy).Contents (Elt Ideal)) (x3 x5 : (⟨S2x1000000, .i32⟩ : BufTy).Contents (Elt Ideal)) (x6 x7 : (⟨S128x128, .f32⟩ : BufTy).Contents (Elt Ideal)) (x8 : (⟨S128, .f32⟩ : BufTy).Contents (Elt Ideal))
    (x12 x13 : (⟨S128x128, .f32⟩ : BufTy).Contents (Elt Ideal)) (x14 : (⟨S128, .f32⟩ : BufTy).Contents (Elt Ideal)) :
    val_main_v89 (F := Ideal) x0 x1 x2 x3 x5 x6 x7 x8 x12 x13 x14
      = itemOut (val_main_v13 (F := Ideal) x0 x3) (val_main_v19 (F := Ideal) x3) (val_main_v71 (F := Ideal) x2 x5) (val_main_v77 (F := Ideal) x5)
          x1 x6 x7 x12 x13 x8 x14 := by
  funext i
  rw [val_main_v89_apply, val_main_v88_apply, val_main_cst_16_apply, val_main_v87_apply, val_main_v28_apply, val_main_v25_apply,
    val_main_v23_apply, val_main_v24_apply, val_main_v27_apply, val_main_v26_apply, val_main_v86_apply, val_main_v83_apply,
    val_main_v81_apply, val_main_v82_apply, val_main_v85_apply, val_main_v84_apply]
  show _ = itemAt (val_main_v13 (F := Ideal) x0 x3) (val_main_v19 (F := Ideal) x3) (val_main_v71 (F := Ideal) x2 x5) (val_main_v77 (F := Ideal) x5)
          x1 x6 x7 x12 x13 x8 x14 (i 0) (i 1)
  unfold itemAt proj
  simp only [lidx23, ridx23, lidx24, ridx24, lidx81, ridx81, lidx82, ridx82, bias_buys, bias_tags,
    Ideal.addf_def, Ideal.mulf_def, Ideal.ofBits_def]
  have hA : (∑ k : Fin 128, val_main_v22 (F := Ideal) x0 x3 (ix2 (i 0) k) * x6 (ix2 k (i 1)))
      = ∑ k : Fin 128, Ideal.div (val_main_v13 (F := Ideal) x0 x3 (ix2 (i 0) k)) (val_main_v19 (F := Ideal) x3 (ix1 (i 0))) * x6 (ix2 k (i 1)) :=
    Finset.sum_congr rfl fun k _ => congrArg (· * x6 (ix2 k (i 1))) (quot_buys x0 x3 i k)
  have hB : (∑ k : Fin 128, val_main_v80 (F := Ideal) x2 x5 (ix2 (i 0) k) * x12 (ix2 k (i 1)))
      = ∑ k : Fin 128, Ideal.div (val_main_v71 (F := Ideal) x2 x5 (ix2 (i 0) k)) (val_main_v77 (F := Ideal) x5 (ix1 (i 0))) * x12 (ix2 k (i 1)) :=
    Finset.sum_congr rfl fun k _ => congrArg (· * x12 (ix2 k (i 1))) (quot_tags x2 x5 i k)
  exact congrArg₂ (fun y z => Ideal.ofBits .f32 0x3F000000#32
      * ((y + (∑ k : Fin 128, x1 (ix2 (i 0) k) * x7 (ix2 k (i 1))) + x8 (ix1 (i 1)))
        + (z + (∑ k : Fin 128, x1 (ix2 (i 0) k) * x13 (ix2 k (i 1))) + x14 (ix1 (i 1))))) hA hB

end Cert.ReferenceIdeal.RefValue

end
-- ==== Proof.Result.lean ====
/-
  The idealized kernel's two result arrays, as the specification's arrays of the launch memory.

  The user result is the second region's output: its 25 row blocks make the single-relation arrangement of the
  arrays that region finds, and those are the `rev` relation's neighbour sums and reciprocal clamped counts, three
  arguments and the reshaped bias.  The item result is the first region's output, which neither the reshape between
  the regions nor the second region writes: the two-relation arrangement of the `buys` and `tags` relations' sums and
  reciprocal counts, five arguments and the halved sum of the two biases.  The laws of the specification turn each
  arrangement into the reference's.
-/
import proofs.«133394_j16338055594019_2_alg».proof.Proof.UserArray
import proofs.«133394_j16338055594019_2_alg».proof.Proof.ItemArray
import proofs.«133394_j16338055594019_2_alg».proof.Proof.UserStages
import proofs.«133394_j16338055594019_2_alg».proof.Proof.ItemStages
import proofs.«133394_j16338055594019_2_alg».proof.Proof.ItemArgs
import proofs.«133394_j16338055594019_2_alg».proof.Proof.RefValue

set_option maxRecDepth 16384

noncomputable section

namespace Cert.KernelIdeal.Result

open Cert.KernelIdeal Cert.KernelIdeal.Gen Cert.Sage
open Idealize.ShloMosaic Idealize.ShloMosaic.TcCoe Idealize.SL.Sem Idealize.ShloMosaic.StableHlo Idealize.ShloMosaic.ValueIdx
open Cert.ReferenceIdeal.Read (val_main_v13 val_main_v18 val_main_v19 val_main_v42 val_main_v47 val_main_v48 val_main_v71 val_main_v76 val_main_v77)

variable (m : (ℓ : Loc nD τ sig) → Buf (Elt Ideal) ℓ) (ρ : Dev nD → PrngReg)

/-- The user result, from the launch memory. -/
abbrev user (c : Dev nD) : S100000x128.Idx → EReal :=
  userOut (val_main_v42 (F := Ideal) (m ((c : Thread nD τ).loc main_arg1)) (m ((c : Thread nD τ).loc main_arg4))) (val_main_v48 (F := Ideal) (m ((c : Thread nD τ).loc main_arg4)))
    (m ((c : Thread nD τ).loc main_arg0)) (m ((c : Thread nD τ).loc main_arg9)) (m ((c : Thread nD τ).loc main_arg10)) (m ((c : Thread nD τ).loc main_arg11))

/-- The item result, from the launch memory. -/
abbrev item (c : Dev nD) : S100000x128.Idx → EReal :=
  itemOut (val_main_v13 (F := Ideal) (m ((c : Thread nD τ).loc main_arg0)) (m ((c : Thread nD τ).loc main_arg3))) (val_main_v19 (F := Ideal) (m ((c : Thread nD τ).loc main_arg3)))
    (val_main_v71 (F := Ideal) (m ((c : Thread nD τ).loc main_arg2)) (m ((c : Thread nD τ).loc main_arg5))) (val_main_v77 (F := Ideal) (m ((c : Thread nD τ).loc main_arg5)))
    (m ((c : Thread nD τ).loc main_arg1)) (m ((c : Thread nD τ).loc main_arg6)) (m ((c : Thread nD τ).loc main_arg7)) (m ((c : Thread nD τ).loc main_arg12)) (m ((c : Thread nD τ).loc main_arg13)) (m ((c : Thread nD τ).loc main_arg8)) (m ((c : Thread nD τ).loc main_arg14))

/-- The halved sum of two bias vectors, stored as a row, read at column `q`. -/
theorem half_bias_at (b1 b2 : S128.Idx → EReal) (q : Fin 128) :
    shapeCast S1x128 (mulf (F := Ideal) (φ := .f32) (broadcastInDim S128 ![] bcast_S_S128 (constant (F := Ideal) S_ .f32 0x3F000000#32))
      (addf (F := Ideal) (φ := .f32) b1 b2)) shapeCasts_S128_S1x128 (ix2 0 q)
      = Ideal.ofBits .f32 0x3F000000#32 * (b1 (ix1 q) + b2 (ix1 q)) :=
  (feat_row_at _ shapeCasts_S128_S1x128 q).trans rfl

set_option maxHeartbeats 1600000 in
/-- After the last segment the user result buffer holds the user result. -/
theorem user_final (c : Dev nD) : (W4 m ρ c (Proc.devRef .tc main_v81) : S100000x128.Idx → EReal) = user m c := by
  refine ((W4_arr m ρ c 6).trans (UserArray.final (V3 m ρ) c)).trans ?_
  rw [UserStages.sum_rev, UserStages.recip_rev, UserStages.arg0, UserStages.arg9, UserStages.arg10, UserStages.bias]
  funext i
  exact user_law _ _ _ _ _ _ _ _ (i 0) (i 1)
    ((recip_col_at _ _ shapeCasts_S100000_S100000x1 (i 0)).trans (by rw [Cert.ReferenceIdeal.RefValue.ones_rev]))
    (Cert.ReferenceIdeal.RefValue.count_rev_ne_zero _ _)
    (feat_row_at _ shapeCasts_S128_S1x128 (i 1))

set_option maxHeartbeats 1600000 in
/-- After the last segment the item result buffer holds the item result. -/
theorem item_final (c : Dev nD) : (W4 m ρ c (Proc.devRef .tc main_v79) : S100000x128.Idx → EReal) = item m c := by
  have e1 : W4 m ρ c (Proc.devRef .tc main_v79) = W3 m ρ c (Proc.devRef .tc main_v79) := W4_of_ne m ρ c main_v79 (by decide)
  have e2 : W3 m ρ c (Proc.devRef .tc main_v79) = W2 m ρ c (Proc.devRef .tc main_v79) := by
    show StableHlo.after hostOps1 (W2 m ρ c) (Proc.devRef .tc main_v79) = _
    after_results_simp <;> rfl
  refine (e1.trans (e2.trans ((W2_arr m ρ c 10).trans (ItemArray.final (V1 m ρ) c)))).trans ?_
  rw [ItemStages.sum_buys, ItemStages.recip_buys, ItemStages.sum_tags, ItemStages.recip_tags, ItemArgs.arg1, ItemArgs.arg6,
    ItemArgs.arg7, ItemArgs.arg12, ItemArgs.arg13, ItemStages.bias]
  funext i
  exact item_law _ _ _ _ _ _ _ _ _ _ _ _ _ _ (i 0) (i 1)
    ((recip_col_at _ _ shapeCasts_S100000_S100000x1 (i 0)).trans (by rw [Cert.ReferenceIdeal.RefValue.ones_buys]))
    (Cert.ReferenceIdeal.RefValue.count_buys_ne_zero _ _)
    ((recip_col_at _ _ shapeCasts_S100000_S100000x1 (i 0)).trans (by rw [Cert.ReferenceIdeal.RefValue.ones_tags]))
    (Cert.ReferenceIdeal.RefValue.count_tags_ne_zero _ _)
    (half_bias_at _ _ (i 1))

end Cert.KernelIdeal.Result

end
-- ==== Proof.lean ====
/-
  The certificate of a heterogeneous SAGE convolution layer: three relations (buys: user → item, rev: item → user,
  tags: tag → item) over 100000 users, 100000 items and 10000 tags with 128 features, a million edges each.

  For one relation the layer gathers the source rows along the edges, adds them into their destination rows (the raw
  sums `S`), counts the edges into each destination and clamps the count below by one (`C`), and projects:
  entry (p, q) is  Σₖ (S(p,k) / C(p)) · Wl(k,q) + Σₖ X(p,k) · Wr(k,q) + b(q).  The user result is the `rev` relation's
  projection; the item result is one half of the sum of the `buys` and `tags` projections.

  The kernel program computes the sums and the counts by the same host operations as the reference (it narrows the source
  rows to bfloat16 around the gather, which is the identity on extended reals), stores the RECIPROCAL of each clamped count as
  a column, and finishes in two tiled regions: each multiplies a 4000-row block of sums by its reciprocals, runs the two
  matrix products per relation, scales, and adds a bias row — for the item result the halved sum of the two biases.  The
  two programs agree on every extended real: a clamped count is at least one, so it is not zero, and off zero `s · (1 / c)`
  is `s / c`; a product by the nonnegative real ½ distributes over a sum of extended reals, infinite ones included.  So the
  precondition's finiteness is never used.

  The idealization rewrote no operation, so there is nothing to preserve.  The three frames are the generated ones; the
  reference's is its generated run with the results dropped.
-/
import proofs.«133394_j16338055594019_2_alg».proof.Defs
import proofs.«133394_j16338055594019_2_alg».proof.Proof.Gen.Kernel
import proofs.«133394_j16338055594019_2_alg».proof.Proof.Gen.Kernel.Skeleton
import proofs.«133394_j16338055594019_2_alg».proof.Proof.Gen.Kernel.Launch
import proofs.«133394_j16338055594019_2_alg».proof.Proof.Gen.Kernel.Points
import proofs.«133394_j16338055594019_2_alg».proof.Proof.Gen.Kernel.Frame
import proofs.«133394_j16338055594019_2_alg».proof.Proof.Gen.KernelIdeal
import proofs.«133394_j16338055594019_2_alg».proof.Proof.Gen.KernelIdeal.Skeleton
import proofs.«133394_j16338055594019_2_alg».proof.Proof.Gen.KernelIdeal.Launch
import proofs.«133394_j16338055594019_2_alg».proof.Proof.Gen.KernelIdeal.Points
import proofs.«133394_j16338055594019_2_alg».proof.Proof.Gen.KernelIdeal.Frame
import proofs.«133394_j16338055594019_2_alg».proof.Proof.Gen.ReferenceIdeal
import proofs.«133394_j16338055594019_2_alg».proof.Proof.Gen.ReferenceIdeal.Run
import proofs.«133394_j16338055594019_2_alg».proof.Proof.Gen.ReferenceIdeal.Read
import proofs.«133394_j16338055594019_2_alg».proof.Proof.Gen.Pre_finite_inputs
import proofs.«133394_j16338055594019_2_alg».proof.Proof.Named
import proofs.«133394_j16338055594019_2_alg».proof.Proof.Result
import proofs.«133394_j16338055594019_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the fifteen arguments both idealized programs end with the user result and the item result
    of the specification, read off the kernel's launch memory. -/
theorem algebraic : Cert.algebraic_KernelIdeal_ReferenceIdeal := by
  intro m ρ m' ρ' _ hagree
  refine ⟨fun c => Cert.KernelIdeal.Result.user m c, fun c => Cert.KernelIdeal.Result.item m c, ?_, ?_⟩
  · exact (θ_run Cert.KernelIdeal.defs _ _).mono
      (fun _ h c => ⟨(h c).1.trans (Cert.KernelIdeal.Result.user_final m ρ c),
        (h c).2.1.trans (Cert.KernelIdeal.Result.item_final m ρ c), (h c).2.2⟩)
      (Cert.KernelIdeal.Named.run (F := Ideal) m ρ)
  · refine (θ_run Cert.ReferenceIdeal.defs _ _).mono (fun _ h c => ?_) (Cert.ReferenceIdeal.Value.run (F := Ideal) m' ρ')
    obtain ⟨a0, a1, a2, a3, a4, a5, a6, a7, a8, a9, a10, a11, a12, a13, a14⟩ := hagree c
    refine ⟨(h c).1.trans ?_, (h c).2.1.trans ?_, (h c).2.2⟩
    · refine (Cert.ReferenceIdeal.Read.val_main_v57_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
      rw [Cert.ReferenceIdeal.RefValue.user_eq, a0, a1, a4, a9, a10, a11]
    · refine (Cert.ReferenceIdeal.Read.val_main_v89_eq m' c).trans ?_
      rw [Cert.ReferenceIdeal.RefValue.item_eq, a0, a1, a2, a3, a5, a6, a7, a8, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
